-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S32x32 : Shape := ⟨2, ![32, 32]⟩
abbrev S32 : Shape := ⟨1, ![32]⟩
abbrev S6400000 : Shape := ⟨1, ![6400000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x32 .f32) (main_arg1 : FVec F S32x32 .f32) (main_arg2 : FVec F S32 .f32) (main_arg3 : IVec S6400000 32) (main_arg4 : IVec S6400000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x32 : Shape := ⟨2, ![100000, 32]⟩
abbrev S32x32 : Shape := ⟨2, ![32, 32]⟩
abbrev S32 : Shape := ⟨1, ![32]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x1 : Shape := ⟨2, ![100000, 1]⟩
abbrev S10000x32 : Shape := ⟨2, ![10000, 32]⟩
abbrev S6400000x32 : Shape := ⟨2, ![6400000, 32]⟩
abbrev S1x32 : Shape := ⟨2, ![1, 32]⟩

abbrev nBuf : Space → Nat
  | .hbm => 42
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S32x32, .f32⟩
  | .hbm, ⟨2, _⟩ => ⟨S32, .f32⟩
  | .hbm, ⟨3, _⟩ => ⟨S6400000, .i32⟩
  | .hbm, ⟨4, _⟩ => ⟨S6400000, .i32⟩
  | .hbm, ⟨5, _⟩ => ⟨S_, .f32⟩
  | .hbm, ⟨6, _⟩ => ⟨S6400000, .f32⟩
  | .hbm, ⟨7, _⟩ => ⟨S_, .f32⟩
  | .hbm, ⟨8, _⟩ => ⟨S100000, .f32⟩
  | .hbm, ⟨9, _⟩ => ⟨S6400000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S6400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x32, .f32⟩
  | .hbm, ⟨25, _⟩ => ⟨S100000x32, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000x32, .f32⟩
  | .hbm, ⟨35, _⟩ => ⟨S_, .f32⟩
  | .hbm, ⟨36, _⟩ => ⟨S100000x32, .f32⟩
  | .hbm, ⟨37, _⟩ => ⟨S6400000x1, .i32⟩
  | .hbm, ⟨38, _⟩ => ⟨S100000x32, .f32⟩
  | .hbm, ⟨39, _⟩ => ⟨S100000x1, .f32⟩
  | .hbm, ⟨40, _⟩ => ⟨S100000x32, .f32⟩
  | .hbm, ⟨41, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S32x32, .f32⟩
  | .local _ .vmem, ⟨11, _⟩ => ⟨S32, .f32⟩
  | .local _ .vmem, ⟨12, _⟩ => ⟨S10000x32, .f32⟩
  | .local _ .vmem, ⟨13, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bcast_S_S100000x32 : S_.BroadcastsInDim S100000x32 (![] : Fin 0 → Fin S100000x32.rank)
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  scatter_S100000_S6400000x1_S6400000_n_0_0_1_wf : ScatterDims.WF S100000 S6400000x1 S6400000 [] [0] [0] 1
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x32 : Shape := ⟨2, ![100000, 32]⟩
abbrev S32x32 : Shape := ⟨2, ![32, 32]⟩
abbrev S32 : Shape := ⟨1, ![32]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x1 : Shape := ⟨2, ![100000, 1]⟩
abbrev S6400000x32 : Shape := ⟨2, ![6400000, 32]⟩
abbrev S1x32 : Shape := ⟨2, ![1, 32]⟩

abbrev nBuf : Space → Nat
  | .hbm => 46
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S32x32, .f32⟩
  | .hbm, ⟨2, _⟩ => ⟨S32, .f32⟩
  | .hbm, ⟨3, _⟩ => ⟨S6400000, .i32⟩
  | .hbm, ⟨4, _⟩ => ⟨S6400000, .i32⟩
  | .hbm, ⟨5, _⟩ => ⟨S_, .f32⟩
  | .hbm, ⟨6, _⟩ => ⟨S6400000, .f32⟩
  | .hbm, ⟨7, _⟩ => ⟨S_, .f32⟩
  | .hbm, ⟨8, _⟩ => ⟨S100000, .f32⟩
  | .hbm, ⟨9, _⟩ => ⟨S6400000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S6400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x32, .f32⟩
  | .hbm, ⟨25, _⟩ => ⟨S100000x32, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000x32, .f32⟩
  | .hbm, ⟨35, _⟩ => ⟨S_, .f32⟩
  | .hbm, ⟨36, _⟩ => ⟨S100000x32, .f32⟩
  | .hbm, ⟨37, _⟩ => ⟨S6400000x1, .i32⟩
  | .hbm, ⟨38, _⟩ => ⟨S100000x32, .f32⟩
  | .hbm, ⟨39, _⟩ => ⟨S100000x1, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S1x32, .f32⟩
  | .hbm, ⟨44, _⟩ => ⟨S100000x32, .f32⟩
  | .hbm, ⟨45, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S6400000x1_S6400000_n_0_0_1_wf : ScatterDims.WF S100000 S6400000x1 S6400000 [] [0] [0] 1
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S100000x32_S32x32_S100000x32_1_0_0_1_n_n_wf : DotDims.WF S100000x32 S32x32 S100000x32 [1] [0] [0] [1] [] []

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The idealized program's run with its RESULT array named.

  @main of the program is four segments: the host operations that count the degrees and spread the
  out-degree factor over the columns, the row-scaling region, the host operations that gather the scaled
  rows along the edges and add them up per destination node, and the region that multiplies by the in-degree
  factor, projects and adds the bias. The frame of the program follows the buffer contents through these
  segments as a fold `W0 → W1 → W2 → W3 → W4`; at the end every unscoped buffer holds its `W4` contents.
  The frame claim keeps only the argument arrays of that reading. Here the same run is read at the result
  buffer as well: it ends holding `W4` at the second region's output array.
-/
import proofs.«159239_j41291815584253_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents `W4` and the five argument arrays end as launched. -/
theorem run : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Named

end
-- ==== Proof.RowScale.lean ====
/-
  The first region's result array: every row of `x` times its node's out-degree factor.

  The region walks ten blocks of 10000 rows. At block `t` the body loads the block of `x` and the block of
  the factor array (the out-degree factor already spread over the 32 columns by the host), multiplies them
  entry by entry and stores the product as the output block. All three windows move together (block index
  `(t, 0)`), so entry `(r, c)` of output block `t` is the product of the two operands at row
  `10000·t + r`, column `c`: block `t` of the entrywise product of the two whole arrays. The ten blocks
  tile the 100000 rows, so after the region the output array IS that product — whatever the float
  instance, and whatever the two arrays hold when the region is entered.
-/
import proofs.«159239_j41291815584253_2_alg».proof.Proof.Gen.KernelIdeal.Frame
import Idealize.ShloMosaic.Lib.Pipeline.Value

set_option maxRecDepth 16384

noncomputable section

namespace Cert.KernelIdeal.RowScale

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The entrywise product of two [100000, 32] arrays. -/
abbrev scaled (a n : S100000x32.Idx → Elt F .f32) : S100000x32.Idx → Elt F .f32 := fun i => FloatOps.mulf (a i) (n i)

/-- The body's stored value is the product of its two loaded blocks (the shape cast between them changes nothing). -/
theorem payload (x0 x1 : Vec F S10000x32 .f32) : k0_pay1 x0 x1 = mulf x0 x1 := by
  unfold k0_pay1
  rw [shapeCast_self]

/-- The three windows move together down the rows: block index `(t, 0)` at point `t`. -/
theorem block_indices : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- What point `t` writes back is block `t` of the entrywise product of the two operand arrays. -/
theorem flushed_eq (c : Dev nD) (t : Fin cfg0.N) :
    (dat0 V c).flushed 2 t = ((cfg0.win 2).blk t).view.read (Elt F) (scaled (V c main_arg0) (V c main_v14)) := by
  show (cfg0.win 2).cut (grid0.coords t) ((dat0 V c).after 2 t) = _
  rw [after0_2]
  unfold out0_2
  rw [View.canon_unit_zero zero_offsets]
  simp only [View.ld_unit_zero (S := S10000x32) zero_offsets]
  rw [payload]
  obtain ⟨e0, e1, e2, e3, -, -⟩ := block_indices t
  funext j
  show FloatOps.mulf (V c main_arg0 (((cfg0.win 0).blk t).view.emb j)) (V c main_v14 (((cfg0.win 1).blk t).view.emb j))
    = FloatOps.mulf (V c main_arg0 (((cfg0.win 2).blk t).view.emb j)) (V c main_v14 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * (j 1).val = win0_2.index t (1 : Fin 2) * 32 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 32 + 1 * (j 1).val = win0_2.index t (1 : Fin 2) * 32 + 1 * (j 1).val; omega
  rw [h0, h1]

/-- An index of the output array lies in point `t`'s block iff each coordinate lies in the block's range. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v15).slice (win0_2.rect t)).set ↔ _
  rw [View.set_slice_whole, Rect.mem_set_unit]
  exact Iff.rfl

/-- Row `r` lies in the block of point `r / 10000`: the ten blocks cover the array. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  have ht : (i 0).val / 10000 < grid0.N := by omega
  obtain ⟨-, -, -, -, e4, e5⟩ := block_indices ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 32 ≤ (i 1).val
      ∧ (i 1).val < win0_2.index ⟨(i 0).val / 10000, ht⟩ (1 : Fin 2) * 32 + 32
    rw [e5]; omega

/-- After the region its output array is the entrywise product of the two operand arrays as the region found them. -/
theorem result (c : Dev nD) :
    (dat0 V c).arrAt 2 cfg0.N = scaled (V c main_arg0) (V c main_v14) :=
  (dat0 V c).arrAt_eq_of_cover 2 (scaled (V c main_arg0) (V c main_v14)) (fun t _ => flushed_eq V c t) cover

end Cert.KernelIdeal.RowScale

end
-- ==== Proof.Spec.lean ====
/-
  The last stage of the graph convolution, entry by entry.

  Both programs end with the same arithmetic on a [100000, 32] array `A` of aggregated messages, a
  [100000, 32] array `B` holding each node's in-degree factor along its row, the [32, 32] weights `W`
  and the bias `b`:   out(p, q) = Σ_k (A(p, k) · B(p, k)) · W(k, q) + b(q).
  One program computes it as a host matrix product of the whole arrays, the other block of rows by block
  of rows inside a kernel; over the extended reals the entry is this one sum in either case, so it is
  stated once here, over literal shapes, and both sides are read against it.
-/
import Idealize.ShloMosaic.Lib.ValueIdx

noncomputable section

open scoped BigOperators

namespace Cert.GraphConv

open Idealize.ShloMosaic Idealize.ShloMosaic.ValueIdx

/-- Entry `(p, q)` of `(A ∘ B) · W + b`: row `p` of the elementwise product of `A` and `B` against
    column `q` of `W`, plus the bias at `q`. The extents are written as the parameters `n`, `d`, `e`
    so that the same words serve the whole array and one block of its rows. -/
def entry {n d e : Nat} (A B : (⟨2, ![n, d]⟩ : Shape).Idx → EReal) (W : (⟨2, ![d, e]⟩ : Shape).Idx → EReal)
    (b : (⟨1, ![e]⟩ : Shape).Idx → EReal) (p : Fin n) (q : Fin e) : EReal :=
  (∑ k : Fin d, (A (ix2 p k) * B (ix2 p k)) * W (ix2 k q)) + b (ix1 q)

/-- The whole result array: `entry` at every index. -/
def project {n d e : Nat} (A B : (⟨2, ![n, d]⟩ : Shape).Idx → EReal) (W : (⟨2, ![d, e]⟩ : Shape).Idx → EReal)
    (b : (⟨1, ![e]⟩ : Shape).Idx → EReal) : (⟨2, ![n, e]⟩ : Shape).Idx → EReal :=
  fun i => entry A B W b (i 0) (i 1)

theorem project_apply {n d e : Nat} (A B : (⟨2, ![n, d]⟩ : Shape).Idx → EReal) (W : (⟨2, ![d, e]⟩ : Shape).Idx → EReal)
    (b : (⟨1, ![e]⟩ : Shape).Idx → EReal) (p : Fin n) (q : Fin e) :
    project A B W b (ix2 p q) = entry A B W b p q := rfl

end Cert.GraphConv

end
-- ==== Proof.LinearPayload.lean ====
/-
  The second kernel's stored value, entry by entry, over the extended reals.

  The body multiplies its block of aggregated messages by the block of in-degree factors, rounds the product
  and the weights to bf16 (the identity over the extended reals), multiplies the two matrices into a zero
  accumulator and adds the bias row broadcast over the block's rows. A matrix product into a zero accumulator,
  read at entry `(p, q)`, is the plain sum over the one contracted axis of left entry `(p, k)` times right
  entry `(k, q)`; the bias row at `(p, q)` is `b(q)`. So the stored block's entry `(p, q)` is
  `Σ_k (A(p, k) · B(p, k)) · W(k, q) + b(q)`: `GraphConv.entry` of the loaded blocks.
-/
import proofs.«159239_j41291815584253_2_alg».proof.Proof.Gen.KernelIdeal.Skeleton
import proofs.«159239_j41291815584253_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Linear

open Cert.KernelIdeal Cert.KernelIdeal.Gen Idealize.ShloMosaic Idealize.ShloMosaic.ValueIdx

/-- The block matrix product's dimension numbers: rows by the contracted axis times the contracted axis by columns. -/
abbrev D := dot_S10000x32_S32x32_S10000x32_1_0_0_1_n_n

/-- The left operand index keeps the output row, -/
theorem lhs_row (i : S10000x32.Idx) (z : D.contr.Idx) : (D.lhsIdx i z 0).val = (i 0).val := by
  unfold DotDims.lhsIdx
  rw [dif_neg (show ¬(0 : Fin S10000x32.rank) ∈ D.lhsBatch by decide), dif_pos (show (0 : Fin S10000x32.rank) ∈ D.lhsNonContracting by decide)]
  rfl
/-- and takes the contraction coordinate as its column. -/
theorem lhs_col (i : S10000x32.Idx) (z : D.contr.Idx) : (D.lhsIdx i z 1).val = (z ⟨0, by decide⟩).val :=
  D.lhsIdx_val_of_single rfl i z
/-- The right operand index takes the contraction coordinate as its row, -/
theorem rhs_row (i : S10000x32.Idx) (z : D.contr.Idx) : (D.rhsIdx i z 0).val = (z ⟨0, by decide⟩).val :=
  D.rhsIdx_val_of_single rfl i z
/-- and keeps the output column. -/
theorem rhs_col (i : S10000x32.Idx) (z : D.contr.Idx) : (D.rhsIdx i z 1).val = (i 1).val := by
  unfold DotDims.rhsIdx
  rw [dif_neg (show ¬(1 : Fin S32x32.rank) ∈ D.rhsBatch by decide), dif_pos (show (1 : Fin S32x32.rank) ∈ D.rhsNonContracting by decide)]
  rfl

/-- The product's left operand index at output entry `(p, q)` and contraction coordinate `k` is `(p, k)`. -/
theorem lhs_index (p : Fin 10000) (q k : Fin 32) :
    D.lhsIdx (ix2 p q) ((contrEquiv1 D 32 rfl rfl).symm k) = ix2 p k := by
  have hk := contrEquiv1_symm_val D 32 rfl rfl k
  funext a; apply Fin.ext
  match a with
  | ⟨0, _⟩ => exact lhs_row _ _
  | ⟨1, _⟩ => exact (lhs_col _ _).trans hk

/-- The product's right operand index at output entry `(p, q)` and contraction coordinate `k` is `(k, q)`. -/
theorem rhs_index (p : Fin 10000) (q k : Fin 32) :
    D.rhsIdx (ix2 p q) ((contrEquiv1 D 32 rfl rfl).symm k) = ix2 k q := by
  have hk := contrEquiv1_symm_val D 32 rfl rfl k
  funext a; apply Fin.ext
  match a with
  | ⟨0, _⟩ => exact (rhs_row _ _).trans hk
  | ⟨1, _⟩ => exact rhs_col _ _

/-- A matrix product into the zero accumulator at entry `(p, q)`: the sum over `k` of left `(p, k)` times right `(k, q)`. -/
theorem matmul_entry (l : FVec Ideal S10000x32 .bf16) (r : FVec Ideal S32x32 .bf16) (p : Fin 10000) (q : Fin 32) :
    matmul D none l r (constant (F := Ideal) S10000x32 .f32 0x00000000#32) (ix2 p q) = ∑ k : Fin 32, l (ix2 p k) * r (ix2 k q) := by
  refine (Ideal.matmul_constant_zero_apply D none l r (ix2 p q)).trans ?_
  rw [← Equiv.sum_comp (contrEquiv1 D 32 rfl rfl).symm]
  refine Finset.sum_congr rfl fun k _ => ?_
  rw [lhs_index, rhs_index]

/-- The bias, cast to one row and broadcast over the block's rows, read at `(p, q)`: the bias at `q`. -/
theorem bias_entry (b : FVec Ideal S32 .f32) (p : Fin 10000) (q : Fin 32) :
    broadcastTo S10000x32 (shapeCast S1x32 b shapeCasts_S32_S1x32) broadcasts_S1x32_S10000x32 (ix2 p q) = b (ix1 q) :=
  (broadcastTo_1b_ab_apply _ broadcasts_S1x32_S10000x32 p q).trans (shapeCast_a_1a_apply b shapeCasts_S32_S1x32 0 q)

/-- Entry `(p, q)` of the stored block is `Σ_k (A(p, k) · B(p, k)) · W(k, q) + b(q)` of the loaded blocks. -/
theorem payload_entry (x0 x1 : Vec Ideal S10000x32 .f32) (x2 : Vec Ideal S32x32 .f32) (x3 : Vec Ideal S32 .f32)
    (p : Fin 10000) (q : Fin 32) :
    k1_pay1 (F := Ideal) x0 x1 x2 x3 (ix2 p q) = Cert.GraphConv.entry x0 x1 x2 x3 p q := by
  unfold k1_pay1
  rw [shapeCast_self, shapeCast_self]
  refine (addf_apply _ _ (ix2 p q)).trans ?_
  rw [matmul_entry, bias_entry]
  rfl

end Cert.KernelIdeal.Linear

end
-- ==== Proof.Linear.lean ====
/-
  The second region's result array: `(A ∘ B) · W + b` of the arrays the region finds.

  The region walks ten blocks of 10000 rows. At block `t` the body sees rows `10000·t … 10000·t + 9999` of
  the aggregated messages `A` and of the in-degree factors `B`, all of the weights `W` and all of the
  bias `b` (their block index does not move), and stores entry `(p, q) ↦ Σ_k (A_t(p, k) · B_t(p, k)) · W(k, q) + b(q)`
  as output block `t`. Row `p` of block `t` is row `10000·t + p` of the whole arrays, and entry
  `(r, q)` of `(A ∘ B) · W + b` only reads row `r` of `A` and `B`; so output block `t` is block `t`
  of the whole product. The ten blocks tile the 100000 rows, hence the output array after the region is
  `GraphConv.project A B W b`.
-/
import proofs.«159239_j41291815584253_2_alg».proof.Proof.Gen.KernelIdeal.Frame
import proofs.«159239_j41291815584253_2_alg».proof.Proof.LinearPayload
import Idealize.ShloMosaic.Lib.Pipeline.Value

set_option maxRecDepth 16384

noncomputable section

open scoped BigOperators

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The row windows move down the rows together (block index `(t, 0)`); the weights' and the bias's stay at zero. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Entry `(p, k)` of block `t` of the aggregated messages is entry `(10000·t + p, k)` of the array. -/
theorem read_messages (c : Dev nD) (t : Fin cfg1.N) (p : Fin 10000) (k : Fin 32) (h : t.val * 10000 + p.val < 100000) :
    iblk1 V c 0 t (ix2 p k) = V c main_v25 (ix2 ⟨t.val * 10000 + p.val, h⟩ k) := by
  obtain ⟨e0, e1, -⟩ := block_indices t
  show V c main_v25 (((cfg1.win 0).blk t).view.emb (ix2 p k)) = _
  refine congrArg (V c main_v25) ?_
  funext a; apply Fin.ext
  match a with
  | ⟨0, _⟩ => show win1_0.index t (0 : Fin 2) * 10000 + 1 * p.val = t.val * 10000 + p.val; omega
  | ⟨1, _⟩ => show win1_0.index t (1 : Fin 2) * 32 + 1 * k.val = k.val; omega

/-- The same for the in-degree factors. -/
theorem read_factors (c : Dev nD) (t : Fin cfg1.N) (p : Fin 10000) (k : Fin 32) (h : t.val * 10000 + p.val < 100000) :
    iblk1 V c 1 t (ix2 p k) = V c main_v27 (ix2 ⟨t.val * 10000 + p.val, h⟩ k) := by
  obtain ⟨-, -, e2, e3, -⟩ := block_indices t
  show V c main_v27 (((cfg1.win 1).blk t).view.emb (ix2 p k)) = _
  refine congrArg (V c main_v27) ?_
  funext a; apply Fin.ext
  match a with
  | ⟨0, _⟩ => show win1_1.index t (0 : Fin 2) * 10000 + 1 * p.val = t.val * 10000 + p.val; omega
  | ⟨1, _⟩ => show win1_1.index t (1 : Fin 2) * 32 + 1 * k.val = k.val; omega

/-- The weights' block is the whole weight matrix. -/
theorem read_weights (c : Dev nD) (t : Fin cfg1.N) (k q : Fin 32) :
    iblk1 V c 2 t (ix2 k q) = V c main_arg1 (ix2 k q) := by
  obtain ⟨-, -, -, -, e4, e5, -⟩ := block_indices t
  show V c main_arg1 (((cfg1.win 2).blk t).view.emb (ix2 k q)) = _
  refine congrArg (V c main_arg1) ?_
  funext a; apply Fin.ext
  match a with
  | ⟨0, _⟩ => show win1_2.index t (0 : Fin 2) * 32 + 1 * k.val = k.val; omega
  | ⟨1, _⟩ => show win1_2.index t (1 : Fin 2) * 32 + 1 * q.val = q.val; omega

/-- The bias's block is the whole bias. -/
theorem read_bias (c : Dev nD) (t : Fin cfg1.N) (q : Fin 32) :
    iblk1 V c 3 t (ix1 q) = V c main_arg2 (ix1 q) := by
  obtain ⟨-, -, -, -, -, -, e6, -⟩ := block_indices t
  show V c main_arg2 (((cfg1.win 3).blk t).view.emb (ix1 q)) = _
  refine congrArg (V c main_arg2) ?_
  funext a; apply Fin.ext
  match a with
  | ⟨0, _⟩ => show win1_3.index t (0 : Fin 1) * 32 + 1 * q.val = q.val; omega

/-- Entry `(p, q)` of output block `t` sits at `(10000·t + p, q)` of the output array. -/
theorem out_index (t : Fin cfg1.N) (p : Fin 10000) (q : Fin 32) (h : t.val * 10000 + p.val < 100000) :
    ((cfg1.win 4).blk t).view.emb (ix2 p q) = ix2 ⟨t.val * 10000 + p.val, h⟩ q := by
  obtain ⟨-, -, -, -, -, -, -, e7, e8⟩ := block_indices t
  funext a; apply Fin.ext
  match a with
  | ⟨0, _⟩ => show win1_4.index t (0 : Fin 2) * 10000 + 1 * p.val = t.val * 10000 + p.val; omega
  | ⟨1, _⟩ => show win1_4.index t (1 : Fin 2) * 32 + 1 * q.val = q.val; omega

/-- What point `t` writes back is block `t` of `(A ∘ B) · W + b` of the arrays the region finds. -/
theorem flushed_eq (c : Dev nD) (t : Fin cfg1.N) :
    (dat1 V c).flushed 4 t = ((cfg1.win 4).blk t).view.read (Elt Ideal)
      (Cert.GraphConv.project (n := 100000) (d := 32) (e := 32) (V c main_v25) (V c main_v27) (V c main_arg1) (V c main_arg2)) := by
  show (cfg1.win 4).cut (grid1.coords t) ((dat1 V c).after 4 t) = _
  rw [after1_4]
  unfold out1_4
  rw [View.canon_unit_zero zero_offsets2]
  simp only [View.ld_unit_zero (S := S10000x32) zero_offsets2, View.ld_unit_zero (S := S32x32) zero_offsets2,
    View.ld_unit_zero (S := S32) zero_offsets1]
  funext j
  obtain ⟨p, q, rfl⟩ : ∃ (p : Fin 10000) (q : Fin 32), j = ix2 p q := ⟨j 0, j 1, eq_ix2 j⟩
  refine (payload_entry _ _ _ _ p q).trans ?_
  have hN : grid1.N = 10 := N_1
  have ht : t.val < grid1.N := t.isLt
  have hrow : t.val * 10000 + p.val < 100000 := by have := p.isLt; omega
  show _ = Cert.GraphConv.project (n := 100000) (d := 32) (e := 32) (V c main_v25) (V c main_v27) (V c main_arg1) (V c main_arg2)
    (((cfg1.win 4).blk t).view.emb (ix2 p q))
  rw [out_index t p q hrow, Cert.GraphConv.project_apply]
  unfold Cert.GraphConv.entry
  refine congrArg₂ (· + ·) (Finset.sum_congr rfl fun k _ => ?_) (read_bias V c t q)
  rw [read_messages V c t p k hrow, read_factors V c t p k hrow, read_weights V c t k q]

/-- An index of the output array lies in point `t`'s block iff each coordinate lies in the block's range. -/
theorem mem_blk (t : Fin cfg1.N) (i : S100000x32.Idx) :
    i ∈ ((cfg1.win 4).blk t).view.set ↔ ∀ a : Fin 2, win1_4.index t a * S10000x32.size a ≤ (i a).val
      ∧ (i a).val < win1_4.index t a * S10000x32.size a + S10000x32.size a := by
  show i ∈ ((View.whole main_v28).slice (win1_4.rect t)).set ↔ _
  rw [View.set_slice_whole, Rect.mem_set_unit]
  exact Iff.rfl

/-- Row `r` lies in the block of point `r / 10000`: the ten blocks cover the array. -/
theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : grid1.N = 10 := N_1
  have ht : (i 0).val / 10000 < grid1.N := by omega
  obtain ⟨-, -, -, -, -, -, -, e7, e8⟩ := block_indices ⟨(i 0).val / 10000, ht⟩
  refine ⟨⟨(i 0).val / 10000, ht⟩, flush1_4 _, ?_⟩
  rw [mem_blk]
  intro a
  match a with
  | ⟨0, _⟩ =>
    show win1_4.index ⟨(i 0).val / 10000, ht⟩ (0 : Fin 2) * 10000 ≤ (i 0).val
      ∧ (i 0).val < win1_4.index ⟨(i 0).val / 10000, ht⟩ (0 : Fin 2) * 10000 + 10000
    rw [e7]; show (i 0).val / 10000 * 10000 ≤ (i 0).val ∧ (i 0).val < (i 0).val / 10000 * 10000 + 10000; omega
  | ⟨1, _⟩ =>
    show win1_4.index ⟨(i 0).val / 10000, ht⟩ (1 : Fin 2) * 32 ≤ (i 1).val
      ∧ (i 1).val < win1_4.index ⟨(i 0).val / 10000, ht⟩ (1 : Fin 2) * 32 + 32
    rw [e8]; omega

/-- After the region its output array is `(A ∘ B) · W + b` of the four arrays as the region found them. -/
theorem result (c : Dev nD) :
    (dat1 V c).arrAt 4 cfg1.N
      = Cert.GraphConv.project (n := 100000) (d := 32) (e := 32) (V c main_v25) (V c main_v27) (V c main_arg1) (V c main_arg2) :=
  (dat1 V c).arrAt_eq_of_cover 4 _ (fun t _ => flushed_eq V c t) cover

end Cert.KernelIdeal.Linear

end
-- ==== Proof.RefSpec.lean ====
/-
  The reference's result, entry by entry.

  The reference multiplies the aggregated messages by the in-degree factors, takes the host matrix product
  with the weights and adds the bias broadcast over the rows. Over the extended reals the host product at
  entry `(p, q)` is the sum over `k` of left entry `(p, k)` times right entry `(k, q)`, and the bias
  array at `(p, q)` is `b(q)`; so the last stage of the reference IS `GraphConv.project` of its
  aggregation stage, its factor stage, the weights and the bias. The earlier stages — the degree counts, the
  gather along the edges, the scatter-add per destination — are never opened: they stay the named stage
  functions of the arguments.
-/
import proofs.«159239_j41291815584253_2_alg».proof.Proof.Gen.ReferenceIdeal.Read
import proofs.«159239_j41291815584253_2_alg».proof.Proof.Spec

noncomputable section

open scoped BigOperators

namespace Cert.ReferenceIdeal.RefValue

open Cert.ReferenceIdeal Cert.ReferenceIdeal.Read Idealize.ShloMosaic Idealize.ShloMosaic.ValueIdx

/-- The host product's dimension numbers: rows by the contracted axis times the contracted axis by columns. -/
abbrev D := dot_S100000x32_S32x32_S100000x32_1_0_0_1_n_n

/-- The host matrix product at entry `(p, q)`: the sum over `k` of left `(p, k)` times right `(k, q)`, whatever the operands. -/
theorem product_entry (Y : FVec Ideal S100000x32 .f32) (x1 : FVec Ideal S32x32 .f32)
    (p : Fin 100000) (q : Fin 32) :
    Host.dotGeneral (F := Ideal) D none Y x1 (ix2 p q) = ∑ k : Fin 32, Y (ix2 p k) * x1 (ix2 k q) := by
  simp only [Host.dotGeneral]
  rw [Ideal.dotGeneral_apply, ← Equiv.sum_comp (contrEquiv1 D 32 rfl rfl).symm]
  refine Finset.sum_congr rfl fun k _ => ?_
  have hk := contrEquiv1_symm_val D 32 rfl rfl k
  have el : D.lhsIdx (ix2 p q) ((contrEquiv1 D 32 rfl rfl).symm k) = ix2 p k := funext fun a => Fin.ext (by
    match a with
    | ⟨0, _⟩ => exact lhs_main_v29_0 _ _
    | ⟨1, _⟩ => exact (lhs_main_v29_1 _ _).trans hk)
  have er : D.rhsIdx (ix2 p q) ((contrEquiv1 D 32 rfl rfl).symm k) = ix2 k q := funext fun a => Fin.ext (by
    match a with
    | ⟨0, _⟩ => exact (rhs_main_v29_0 _ _).trans hk
    | ⟨1, _⟩ => exact rhs_main_v29_1 _ _)
  rw [el, er]

/-- The bias array at `(p, q)` reads the bias at `q`. -/
theorem bias_index (p : Fin 100000) (q : Fin 32) : idx_main_v30 (idx_main_v31 (ix2 p q)) = ix1 q :=
  funext fun a => Fin.ext (by match a with | ⟨0, _⟩ => rfl)

theorem bias_entry (x2 : FVec Ideal S32 .f32) (p : Fin 100000) (q : Fin 32) :
    val_main_v31 (F := Ideal) x2 (ix2 p q) = x2 (ix1 q) :=
  (val_main_v31_apply (F := Ideal) x2 (ix2 p q)).trans ((val_main_v30_apply (F := Ideal) x2 _).trans (congrArg x2 (bias_index p q)))

/-- The reference's last three operations on ANY aggregated array `A` and factor array `B`: `(A ∘ B) · W + b`. -/
theorem last_stage (A B : FVec Ideal S100000x32 .f32) (x1 : FVec Ideal S32x32 .f32) (x2 : FVec Ideal S32 .f32) :
    addf (F := Ideal) (Host.dotGeneral (F := Ideal) D none (mulf (F := Ideal) A B) x1) (val_main_v31 (F := Ideal) x2)
      = Cert.GraphConv.project (n := 100000) (d := 32) (e := 32) A B x1 x2 := by
  funext i
  obtain ⟨p, q, rfl⟩ : ∃ (p : Fin 100000) (q : Fin 32), i = ix2 p q := ⟨i 0, i 1, eq_ix2 i⟩
  refine (addf_apply _ _ (ix2 p q)).trans ?_
  rw [product_entry, bias_entry, Cert.GraphConv.project_apply]
  rfl

/-- The reference's result array is `(A ∘ B) · W + b` of its aggregation stage `A`, its in-degree factor
    stage `B`, the weights and the bias. -/
theorem result_eq (x0 : (⟨S100000x32, .f32⟩ : BufTy).Contents (Elt Ideal)) (x1 : (⟨S32x32, .f32⟩ : BufTy).Contents (Elt Ideal))
    (x2 : (⟨S32, .f32⟩ : BufTy).Contents (Elt Ideal)) (x3 x4 : (⟨S6400000, .i32⟩ : BufTy).Contents (Elt Ideal)) :
    val_main_v32 (F := Ideal) x0 x1 x2 x3 x4
      = Cert.GraphConv.project (n := 100000) (d := 32) (e := 32) (val_main_v25 (F := Ideal) x0 x3 x4) (val_main_v27 (F := Ideal) x4) x1 x2 := by
  unfold val_main_v32 val_main_v29 val_main_v28
  exact last_stage _ _ _ _

end Cert.ReferenceIdeal.RefValue

end
-- ==== Proof.KernelValue.lean ====
/-
  The idealized program's result as a function of its arguments.

  The buffer contents at the four segment boundaries are read one after the other. Before the first region
  the host has counted every node's out-degree from `src` (a scatter-add of ones), clamped it at one, taken
  the reciprocal square root and spread it over the 32 columns: the factor array is the reference's own stage
  of the same name applied to `src`, and `x` is untouched. The first region leaves `x` times that factor,
  entry by entry (RowScale): the reference's scaled-feature stage. The host then gathers the scaled rows along
  the edges and adds them up per destination node — the very operations the reference applies, to the same
  array, so the aggregated messages are the reference's aggregation stage, which is never opened — and spreads
  the in-degree factor (computed before the first region, which does not touch it) over the columns. The
  second region leaves `(A ∘ B) · W + b` of those two arrays, the weights and the bias (Linear), which is
  the reference's last stage of the same arrays (RefSpec). The two programs name their shapes, dimension
  records and side conditions separately; the names denote the same things, so the stage functions agree by
  unfolding the names.
-/
import proofs.«159239_j41291815584253_2_alg».proof.Proof.Gen.KernelIdeal.Frame
import proofs.«159239_j41291815584253_2_alg».proof.Proof.RowScale
import proofs.«159239_j41291815584253_2_alg».proof.Proof.Linear
import proofs.«159239_j41291815584253_2_alg».proof.Proof.RefSpec
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal.Read (val_main_v12 val_main_v14 val_main_v15 val_main_v25 val_main_v27 val_main_v32)

variable (m : (ℓ : Loc nD τ sig) → Buf (Elt Ideal) ℓ) (ρ : Dev nD → PrngReg)

/-! ## Before the first region -/

/-- `x` is as launched when the first region is entered. -/
theorem entry_x (c : Dev nD) : V1 m ρ c main_arg0 = m ((c : Thread nD τ).loc main_arg0) := by
  show StableHlo.after hostOps0 (W0 m ρ c) (Proc.devRef .tc main_arg0) = _
  after_results

/-- The factor array the first region is entered with is the reference's out-degree factor stage of `src`. -/
theorem entry_out_factor (c : Dev nD) :
    V1 m ρ c main_v14 = val_main_v14 (F := Ideal) (m ((c : Thread nD τ).loc main_arg3)) := by
  show StableHlo.after hostOps0 (W0 m ρ c) (Proc.devRef .tc main_v14) = _
  after_results
  rfl

/-- The in-degree factor (before spreading), computed before the first region, is the reference's stage of `dst`. -/
theorem in_factor (c : Dev nD) :
    W1 m ρ c (Proc.devRef .tc main_v12) = val_main_v12 (F := Ideal) (m ((c : Thread nD τ).loc main_arg4)) := by
  show StableHlo.after hostOps0 (W0 m ρ c) (Proc.devRef .tc main_v12) = _
  after_results
  rfl

theorem before_src (c : Dev nD) : W1 m ρ c (Proc.devRef .tc main_arg3) = m ((c : Thread nD τ).loc main_arg3) := by
  show StableHlo.after hostOps0 (W0 m ρ c) (Proc.devRef .tc main_arg3) = _
  after_results
theorem before_dst (c : Dev nD) : W1 m ρ c (Proc.devRef .tc main_arg4) = m ((c : Thread nD τ).loc main_arg4) := by
  show StableHlo.after hostOps0 (W0 m ρ c) (Proc.devRef .tc main_arg4) = _
  after_results
theorem before_weights (c : Dev nD) : W1 m ρ c (Proc.devRef .tc main_arg1) = m ((c : Thread nD τ).loc main_arg1) := by
  show StableHlo.after hostOps0 (W0 m ρ c) (Proc.devRef .tc main_arg1) = _
  after_results
theorem before_bias (c : Dev nD) : W1 m ρ c (Proc.devRef .tc main_arg2) = m ((c : Thread nD τ).loc main_arg2) := by
  show StableHlo.after hostOps0 (W0 m ρ c) (Proc.devRef .tc main_arg2) = _
  after_results

/-! ## After the first region -/

/-- The first region leaves the reference's scaled-feature stage in its output array. -/
theorem scaled_features (c : Dev nD) :
    W2 m ρ c (Proc.devRef .tc main_v15)
      = val_main_v15 (F := Ideal) (m ((c : Thread nD τ).loc main_arg0)) (m ((c : Thread nD τ).loc main_arg3)) := by
  refine (W2_arr m ρ c 2).trans ((RowScale.result (V1 m ρ) c).trans ?_)
  rw [entry_x, entry_out_factor]
  rfl

/-- The first region touches none of these. -/
theorem mid_src (c : Dev nD) : W2 m ρ c (Proc.devRef .tc main_arg3) = m ((c : Thread nD τ).loc main_arg3) :=
  (W2_of_ne m ρ c main_arg3 (by decide)).trans (before_src m ρ c)
theorem mid_dst (c : Dev nD) : W2 m ρ c (Proc.devRef .tc main_arg4) = m ((c : Thread nD τ).loc main_arg4) :=
  (W2_of_ne m ρ c main_arg4 (by decide)).trans (before_dst m ρ c)
theorem mid_weights (c : Dev nD) : W2 m ρ c (Proc.devRef .tc main_arg1) = m ((c : Thread nD τ).loc main_arg1) :=
  (W2_of_ne m ρ c main_arg1 (by decide)).trans (before_weights m ρ c)
theorem mid_bias (c : Dev nD) : W2 m ρ c (Proc.devRef .tc main_arg2) = m ((c : Thread nD τ).loc main_arg2) :=
  (W2_of_ne m ρ c main_arg2 (by decide)).trans (before_bias m ρ c)
theorem mid_in_factor (c : Dev nD) :
    W2 m ρ c (Proc.devRef .tc main_v12) = val_main_v12 (F := Ideal) (m ((c : Thread nD τ).loc main_arg4)) :=
  (W2_of_ne m ρ c main_v12 (by decide)).trans (in_factor m ρ c)

/-! ## Before the second region -/

/-- The aggregated messages the second region is entered with are the reference's aggregation stage. -/
theorem entry_messages (c : Dev nD) :
    V3 m ρ c main_v25 = val_main_v25 (F := Ideal) (m ((c : Thread nD τ).loc main_arg0))
      (m ((c : Thread nD τ).loc main_arg3)) (m ((c : Thread nD τ).loc main_arg4)) := by
  show StableHlo.after hostOps1 (W2 m ρ c) (Proc.devRef .tc main_v25) = _
  after_results
  rw [scaled_features, mid_src, mid_dst]
  rfl

/-- The in-degree factor array the second region is entered with is the reference's stage of `dst`. -/
theorem entry_in_factor (c : Dev nD) :
    V3 m ρ c main_v27 = val_main_v27 (F := Ideal) (m ((c : Thread nD τ).loc main_arg4)) := by
  show StableHlo.after hostOps1 (W2 m ρ c) (Proc.devRef .tc main_v27) = _
  after_results
  rw [mid_in_factor]
  rfl

theorem entry_weights (c : Dev nD) : V3 m ρ c main_arg1 = m ((c : Thread nD τ).loc main_arg1) := by
  show StableHlo.after hostOps1 (W2 m ρ c) (Proc.devRef .tc main_arg1) = _
  after_results
  exact mid_weights m ρ c
theorem entry_bias (c : Dev nD) : V3 m ρ c main_arg2 = m ((c : Thread nD τ).loc main_arg2) := by
  show StableHlo.after hostOps1 (W2 m ρ c) (Proc.devRef .tc main_arg2) = _
  after_results
  exact mid_bias m ρ c

/-! ## After the second region -/

/-- The result buffer's last contents are the reference's result stage of the five arguments. -/
theorem result (c : Dev nD) :
    W4 m ρ c (Proc.devRef .tc main_v28)
      = val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W4_arr m ρ c 4).trans ((Linear.result (V3 m ρ) c).trans ?_)
  rw [entry_messages, entry_in_factor, entry_weights, entry_bias]
  exact (Cert.ReferenceIdeal.RefValue.result_eq _ _ _ _ _).symm

end Cert.KernelIdeal.Result

end
-- ==== Proof.lean ====
/-
  A degree-normalised graph convolution: `out = D_in^{-1/2} · Agg(D_out^{-1/2} · x) · W + b`, where `Agg`
  gathers the rows of its operand along the edges `src` and adds them up per destination node `dst`, and
  the degrees are counted from the edge lists and clamped at one.

  The kernel program computes the two dense stages in two regions — the row scaling `x · D_out^{-1/2}` and the
  fused `(agg · D_in^{-1/2}) · W + b` with the product's operands rounded to bf16 — and leaves the degree
  counts, the gather and the scatter-add to the host; the reference computes everything on the host. Over the
  extended reals the rounding is the identity and a matrix product is the plain sum over the contracted axis
  whether taken whole or ten thousand rows at a time, so both programs compute the same function of the
  arguments: no algebraic law beyond reading each operation at an index is needed, and the precondition is
  not used.

  The frames of the two kernel programs are the generated ones; the reference's is its generated run. The
  ideal pass rewrote nothing, so the idealization claim is trivial. For the value claim the kernel program's
  run is read with its result named (KernelRun), the result is followed through the four segments to the
  reference's own result stage of the arguments (KernelValue, over RowScale, Linear, RefSpec), and the
  reference's run ends at that stage by its generated run.
-/
import proofs.«159239_j41291815584253_2_alg».proof.Defs
import proofs.«159239_j41291815584253_2_alg».proof.Proof.Gen.Kernel
import proofs.«159239_j41291815584253_2_alg».proof.Proof.Gen.Kernel.Skeleton
import proofs.«159239_j41291815584253_2_alg».proof.Proof.Gen.Kernel.Launch
import proofs.«159239_j41291815584253_2_alg».proof.Proof.Gen.Kernel.Points
import proofs.«159239_j41291815584253_2_alg».proof.Proof.Gen.Kernel.Frame
import proofs.«159239_j41291815584253_2_alg».proof.Proof.Gen.KernelIdeal
import proofs.«159239_j41291815584253_2_alg».proof.Proof.Gen.KernelIdeal.Skeleton
import proofs.«159239_j41291815584253_2_alg».proof.Proof.Gen.KernelIdeal.Launch
import proofs.«159239_j41291815584253_2_alg».proof.Proof.Gen.KernelIdeal.Points
import proofs.«159239_j41291815584253_2_alg».proof.Proof.Gen.KernelIdeal.Frame
import proofs.«159239_j41291815584253_2_alg».proof.Proof.Gen.ReferenceIdeal
import proofs.«159239_j41291815584253_2_alg».proof.Proof.Gen.Pre_finite_inputs
import proofs.«159239_j41291815584253_2_alg».proof.Proof.Gen.ReferenceIdeal.Run
import proofs.«159239_j41291815584253_2_alg».proof.Proof.Gen.ReferenceIdeal.Read
import proofs.«159239_j41291815584253_2_alg».proof.Proof.KernelRun
import proofs.«159239_j41291815584253_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result buffer at the reference's result stage of the (agreeing) arguments. -/
theorem algebraic : Cert.algebraic_KernelIdeal_ReferenceIdeal := by
  intro m ρ m' ρ' _ hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Result.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
